-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16384x3 : Shape := ⟨3, ![512, 16384, 3]⟩
abbrev S_ : Shape := ⟨0, ![]⟩

class Facts : Prop where
  bcast_S_S512x16384x3 : S_.BroadcastsInDim S512x16384x3 (![] : Fin 0 → Fin S512x16384x3.rank)
  reducesTo_S512x16384x3_S_d0_1_2 : S512x16384x3.ReducesTo [0, 1, 2] S_
  h_S_ : 0 < S_.numel

variable [Facts]

def fn {F : FTy → Type} [FloatOps F] (main_arg0 : FVec F S512x16384x3 .f32) : IVec S_ 1 :=
  let main_v0 : FVec F S512x16384x3 .f32 := Host.absf main_arg0
  let main_cst : FVec F S_ .f32 := constant S_ .f32 0x7F800000#32
  let main_v1 : FVec F S512x16384x3 .f32 := broadcastInDim S512x16384x3 ![] bcast_S_S512x16384x3 main_cst
  let main_v2 : IVec S512x16384x3 1 := cmpf .olt main_v0 main_v1
  let main_c : IVec S_ 1 := constantI S_ 1 1#1
  let main_v3 : IVec S_ 1 := (fun x v => Host.reduce IntOp.andi x v reducesTo_S512x16384x3_S_d0_1_2 h_S_) main_v2 main_c
  main_v3
-- ==== Kernel.lean ====
abbrev S512x16384x3 : Shape := ⟨3, ![512, 16384, 3]⟩
abbrev S3x512x16384 : Shape := ⟨3, ![3, 512, 16384]⟩
abbrev S3x16x16384 : Shape := ⟨3, ![3, 16, 16384]⟩
abbrev S1x16384 : Shape := ⟨2, ![1, 16384]⟩
abbrev S1x16x16384 : Shape := ⟨3, ![1, 16, 16384]⟩
abbrev S16x16384 : Shape := ⟨2, ![16, 16384]⟩
abbrev S16 : Shape := ⟨1, ![16]⟩
abbrev S16x1 : Shape := ⟨2, ![16, 1]⟩

abbrev nBuf : Space → Nat
  | .hbm => 4
  | .vmem => 4
  | .smem => 0
  | _ => 0

abbrev bufTy : (tb : Table) → Fin (tcTables nBuf tb) → BufTy
  | .hbm, ⟨0, _⟩ => ⟨S512x16384x3, .f32⟩
  | .hbm, ⟨1, _⟩ => ⟨S3x512x16384, .f32⟩
  | .hbm, ⟨2, _⟩ => ⟨S3x512x16384, .f32⟩
  | .hbm, ⟨3, _⟩ => ⟨S512x16384x3, .f32⟩
  | .local _ .vmem, ⟨0, _⟩ => ⟨S3x16x16384, .f32⟩
  | .local _ .vmem, ⟨1, _⟩ => ⟨S3x16x16384, .f32⟩
  | .local _ .vmem, ⟨2, _⟩ => ⟨S3x16x16384, .f32⟩
  | .local _ .vmem, ⟨3, _⟩ => ⟨S3x16x16384, .f32⟩
  | _, _ => ⟨S512x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x16x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x16x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S512x16384x3_S3x512x16384_2_0_1 : S512x16384x3.Transposes [2, 0, 1] S3x512x16384
  iota_S1x16384_d1_w32 : S1x16384.Iotas .tc 32 [1]
  natLt_1_32 : 1 < 32
  inb_S3x16x16384_S1x16x16384_0_0_0 : ∀ a, (![0, 0, 0] : Fin 3 → Nat) a + S1x16x16384.size a ≤ S3x16x16384.size a
  h_S1x16x16384 : 0 < S1x16x16384.numel
  shapeCasts_S1x16x16384_S16x16384 : S1x16x16384.ShapeCasts S16x16384
  inb_S3x16x16384_S1x16x16384_1_0_0 : ∀ a, (![1, 0, 0] : Fin 3 → Nat) a + S1x16x16384.size a ≤ S3x16x16384.size a
  inb_S3x16x16384_S1x16x16384_2_0_0 : ∀ a, (![2, 0, 0] : Fin 3 → Nat) a + S1x16x16384.size a ≤ S3x16x16384.size a
  rotates_S16x16384_d1 : S16x16384.Rotates 1 none
  broadcasts_S1x16384_S16x16384 : S1x16384.Broadcasts S16x16384
  reduces_S16x16384_S16 : S16x16384.Reduces [1] S16
  shapeCasts_S16_S16x1 : S16.ShapeCasts S16x1
  broadcasts_S16x1_S16x16384 : S16x1.Broadcasts S16x16384
  shapeCasts_S16x16384_S1x16x16384 : S16x16384.ShapeCasts S1x16x16384
  transposes_S3x512x16384_S512x16384x3_1_2_0 : S3x512x16384.Transposes [1, 2, 0] S512x16384x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x16x16384.size a ≤ S3x512x16384.size a
  hwx0_0 : ∀ i : grid0.Coords, EltTy.bits .f32 = 32 ∨ (Rect.block (s := S3x512x16384) S3x16x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x16x16384.size a ≤ S3x512x16384.size a
  hwx0_1 : ∀ i : grid0.Coords, EltTy.bits .f32 = 32 ∨ (Rect.block (s := S3x512x16384) S3x16x16384.size (cc0_transform_1 i) (hinb0_1 i)).WholeWords (EltTy.packing .f32)

variable [Facts₀]

abbrev win0_0 : Pipeline.Window sig grid0 :=
  Pipeline.Window.ofSpec (Memref.whole main_v0) S3x16x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x16x16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x16384x3 : Shape := ⟨3, ![512, 16384, 3]⟩
abbrev S512x16383x3 : Shape := ⟨3, ![512, 16383, 3]⟩
abbrev S_ : Shape := ⟨0, ![]⟩
abbrev S512x16383 : Shape := ⟨2, ![512, 16383]⟩
abbrev S512 : Shape := ⟨1, ![512]⟩
abbrev S512x1x1 : Shape := ⟨3, ![512, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S512x16384x3, .f32⟩
  | .hbm, ⟨1, _⟩ => ⟨S512x16383x3, .f32⟩
  | .hbm, ⟨2, _⟩ => ⟨S512x16383x3, .f32⟩
  | .hbm, ⟨3, _⟩ => ⟨S512x16383x3, .f32⟩
  | .hbm, ⟨4, _⟩ => ⟨S512x16383x3, .f32⟩
  | .hbm, ⟨5, _⟩ => ⟨S_, .f32⟩
  | .hbm, ⟨6, _⟩ => ⟨S512x16383, .f32⟩
  | .hbm, ⟨7, _⟩ => ⟨S_, .f32⟩
  | .hbm, ⟨8, _⟩ => ⟨S512x16383, .f32⟩
  | .hbm, ⟨9, _⟩ => ⟨S512x16383, .f32⟩
  | .hbm, ⟨10, _⟩ => ⟨S512x16383, .f32⟩
  | .hbm, ⟨11, _⟩ => ⟨S_, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512x16383, .f32⟩
  | .hbm, ⟨16, _⟩ => ⟨S512x16383, .f32⟩
  | .hbm, ⟨17, _⟩ => ⟨S512x16383, .f32⟩
  | .hbm, ⟨18, _⟩ => ⟨S512x16383, .f32⟩
  | .hbm, ⟨19, _⟩ => ⟨S512x16383x3, .f32⟩
  | .hbm, ⟨20, _⟩ => ⟨S512x16383x3, .f32⟩
  | .hbm, ⟨21, _⟩ => ⟨S512x16383x3, .f32⟩
  | .hbm, ⟨22, _⟩ => ⟨S512x16383x3, .f32⟩
  | .hbm, ⟨23, _⟩ => ⟨S512x16383x3, .f32⟩
  | .hbm, ⟨24, _⟩ => ⟨S_, .f32⟩
  | .hbm, ⟨25, _⟩ => ⟨S512x16384x3, .f32⟩
  | .hbm, ⟨26, _⟩ => ⟨S_, .f32⟩
  | .hbm, ⟨27, _⟩ => ⟨S512x16384x3, .f32⟩
  | .hbm, ⟨28, _⟩ => ⟨S512x16384x3, .f32⟩
  | .hbm, ⟨29, _⟩ => ⟨S512x16384x3, .f32⟩
  | .hbm, ⟨30, _⟩ => ⟨S_, .f32⟩
  | .hbm, ⟨31, _⟩ => ⟨S512, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S512, .f32⟩
  | .hbm, ⟨36, _⟩ => ⟨S512x1x1, .f32⟩
  | .hbm, ⟨37, _⟩ => ⟨S512x16384x3, .f32⟩
  | .hbm, ⟨38, _⟩ => ⟨S512x16384x3, .f32⟩
  | .hbm, ⟨39, _⟩ => ⟨S512x16384x3, .f32⟩
  | .hbm, ⟨40, _⟩ => ⟨S512x16383x3, .f32⟩
  | .hbm, ⟨41, _⟩ => ⟨S512x16383x3, .f32⟩
  | .hbm, ⟨42, _⟩ => ⟨S512x16383x3, .f32⟩
  | .hbm, ⟨43, _⟩ => ⟨S512x16383x3, .f32⟩
  | .hbm, ⟨44, _⟩ => ⟨S_, .f32⟩
  | .hbm, ⟨45, _⟩ => ⟨S512x16383, .f32⟩
  | .hbm, ⟨46, _⟩ => ⟨S_, .f32⟩
  | .hbm, ⟨47, _⟩ => ⟨S512x16383, .f32⟩
  | .hbm, ⟨48, _⟩ => ⟨S512x16383, .f32⟩
  | .hbm, ⟨49, _⟩ => ⟨S512x16383, .f32⟩
  | .hbm, ⟨50, _⟩ => ⟨S_, .f32⟩
  | .hbm, ⟨51, _⟩ => ⟨S512, .f32⟩
  | .hbm, ⟨52, _⟩ => ⟨S_, .f32⟩
  | .hbm, ⟨53, _⟩ => ⟨S512, .f32⟩
  | .hbm, ⟨54, _⟩ => ⟨S512x16383, .f32⟩
  | .hbm, ⟨55, _⟩ => ⟨S512x16383, .f32⟩
  | .hbm, ⟨56, _⟩ => ⟨S512x16383, .f32⟩
  | .hbm, ⟨57, _⟩ => ⟨S512x16383, .f32⟩
  | .hbm, ⟨58, _⟩ => ⟨S512x16383x3, .f32⟩
  | .hbm, ⟨59, _⟩ => ⟨S512x16383x3, .f32⟩
  | .hbm, ⟨60, _⟩ => ⟨S512x16383x3, .f32⟩
  | .hbm, ⟨61, _⟩ => ⟨S512x16383x3, .f32⟩
  | .hbm, ⟨62, _⟩ => ⟨S512x16383x3, .f32⟩
  | .hbm, ⟨63, _⟩ => ⟨S_, .f32⟩
  | .hbm, ⟨64, _⟩ => ⟨S512x16384x3, .f32⟩
  | .hbm, ⟨65, _⟩ => ⟨S_, .f32⟩
  | .hbm, ⟨66, _⟩ => ⟨S512x16384x3, .f32⟩
  | .hbm, ⟨67, _⟩ => ⟨S512x16384x3, .f32⟩
  | .hbm, ⟨68, _⟩ => ⟨S512x16384x3, .f32⟩
  | .hbm, ⟨69, _⟩ => ⟨S_, .f32⟩
  | .hbm, ⟨70, _⟩ => ⟨S512, .f32⟩
  | .hbm, ⟨71, _⟩ => ⟨S_, .f32⟩
  | .hbm, ⟨72, _⟩ => ⟨S512, .f32⟩
  | .hbm, ⟨73, _⟩ => ⟨S512, .f32⟩
  | .hbm, ⟨74, _⟩ => ⟨S512, .f32⟩
  | .hbm, ⟨75, _⟩ => ⟨S512x1x1, .f32⟩
  | .hbm, ⟨76, _⟩ => ⟨S512x16384x3, .f32⟩
  | .hbm, ⟨77, _⟩ => ⟨S512x16384x3, .f32⟩
  | .hbm, ⟨78, _⟩ => ⟨S512x16384x3, .f32⟩
  | .hbm, ⟨79, _⟩ => ⟨S512x16383x3, .f32⟩
  | .hbm, ⟨80, _⟩ => ⟨S512x16383x3, .f32⟩
  | .hbm, ⟨81, _⟩ => ⟨S512x16383x3, .f32⟩
  | .hbm, ⟨82, _⟩ => ⟨S512x16383x3, .f32⟩
  | .hbm, ⟨83, _⟩ => ⟨S_, .f32⟩
  | .hbm, ⟨84, _⟩ => ⟨S512x16383, .f32⟩
  | .hbm, ⟨85, _⟩ => ⟨S_, .f32⟩
  | .hbm, ⟨86, _⟩ => ⟨S512x16383, .f32⟩
  | .hbm, ⟨87, _⟩ => ⟨S512x16383, .f32⟩
  | .hbm, ⟨88, _⟩ => ⟨S512x16383, .f32⟩
  | .hbm, ⟨89, _⟩ => ⟨S_, .f32⟩
  | .hbm, ⟨90, _⟩ => ⟨S512, .f32⟩
  | .hbm, ⟨91, _⟩ => ⟨S_, .f32⟩
  | .hbm, ⟨92, _⟩ => ⟨S512, .f32⟩
  | .hbm, ⟨93, _⟩ => ⟨S512x16383, .f32⟩
  | .hbm, ⟨94, _⟩ => ⟨S512x16383, .f32⟩
  | .hbm, ⟨95, _⟩ => ⟨S512x16383, .f32⟩
  | .hbm, ⟨96, _⟩ => ⟨S512x16383, .f32⟩
  | .hbm, ⟨97, _⟩ => ⟨S512x16383x3, .f32⟩
  | .hbm, ⟨98, _⟩ => ⟨S512x16383x3, .f32⟩
  | .hbm, ⟨99, _⟩ => ⟨S512x16383x3, .f32⟩
  | .hbm, ⟨100, _⟩ => ⟨S512x16383x3, .f32⟩
  | .hbm, ⟨101, _⟩ => ⟨S512x16383x3, .f32⟩
  | .hbm, ⟨102, _⟩ => ⟨S_, .f32⟩
  | .hbm, ⟨103, _⟩ => ⟨S512x16384x3, .f32⟩
  | .hbm, ⟨104, _⟩ => ⟨S_, .f32⟩
  | .hbm, ⟨105, _⟩ => ⟨S512x16384x3, .f32⟩
  | .hbm, ⟨106, _⟩ => ⟨S512x16384x3, .f32⟩
  | .hbm, ⟨107, _⟩ => ⟨S512x16384x3, .f32⟩
  | .hbm, ⟨108, _⟩ => ⟨S_, .f32⟩
  | .hbm, ⟨109, _⟩ => ⟨S512, .f32⟩
  | .hbm, ⟨110, _⟩ => ⟨S_, .f32⟩
  | .hbm, ⟨111, _⟩ => ⟨S512, .f32⟩
  | .hbm, ⟨112, _⟩ => ⟨S512, .f32⟩
  | .hbm, ⟨113, _⟩ => ⟨S512, .f32⟩
  | .hbm, ⟨114, _⟩ => ⟨S512x1x1, .f32⟩
  | .hbm, ⟨115, _⟩ => ⟨S512x16384x3, .f32⟩
  | .hbm, ⟨116, _⟩ => ⟨S512x16384x3, .f32⟩
  | .hbm, ⟨117, _⟩ => ⟨S512x16384x3, .f32⟩
  | _, _ => ⟨S512x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_cst_6 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_7 : Ref sig .tc := ⟨.hbm, 44, rfl⟩
abbrev main_v35 : Ref sig .tc := ⟨.hbm, 45, rfl⟩
abbrev main_cst_8 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_9 : Ref sig .tc := ⟨.hbm, 50, rfl⟩
abbrev main_v39 : Ref sig .tc := ⟨.hbm, 51, rfl⟩
abbrev main_cst_10 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_11 : Ref sig .tc := ⟨.hbm, 63, rfl⟩
abbrev main_v50 : Ref sig .tc := ⟨.hbm, 64, rfl⟩
abbrev main_cst_12 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_13 : Ref sig .tc := ⟨.hbm, 69, rfl⟩
abbrev main_v54 : Ref sig .tc := ⟨.hbm, 70, rfl⟩
abbrev main_cst_14 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_15 : Ref sig .tc := ⟨.hbm, 83, rfl⟩
abbrev main_v66 : Ref sig .tc := ⟨.hbm, 84, rfl⟩
abbrev main_cst_16 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_17 : Ref sig .tc := ⟨.hbm, 89, rfl⟩
abbrev main_v70 : Ref sig .tc := ⟨.hbm, 90, rfl⟩
abbrev main_cst_18 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_19 : Ref sig .tc := ⟨.hbm, 102, rfl⟩
abbrev main_v81 : Ref sig .tc := ⟨.hbm, 103, rfl⟩
abbrev main_cst_20 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_21 : Ref sig .tc := ⟨.hbm, 108, rfl⟩
abbrev main_v85 : Ref sig .tc := ⟨.hbm, 109, rfl⟩
abbrev main_cst_22 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩

abbrev nD : Nat := 1
abbrev τ : Topo := Topo.v7x

variable {F : FTy → Type} [FloatOps F]

class Facts₀ : Prop where
  slices_S512x16384x3_S512x16383x3_0_1_0 : S512x16384x3.Slices ![0, 1, 0] S512x16383x3
  slices_S512x16384x3_S512x16383x3_0_0_0 : S512x16384x3.Slices ![0, 0, 0] S512x16383x3
  reducesTo_S512x16383x3_S512x16383_d2 : S512x16383x3.ReducesTo [2] S512x16383
  h_S_ : 0 < S_.numel
  bcast_S_S512x16383 : S_.BroadcastsInDim S512x16383 (![] : Fin 0 → Fin S512x16383.rank)
  reducesTo_S512x16383_S512_d1 : S512x16383.ReducesTo [1] S512
  bcast_S_S512 : S_.BroadcastsInDim S512 (![] : Fin 0 → Fin S512.rank)
  bcast_S512_S512x16383_0 : S512.BroadcastsInDim S512x16383 (![0] : Fin 1 → Fin S512x16383.rank)
  bcast_S512x16383_S512x16383x3_0_1 : S512x16383.BroadcastsInDim S512x16383x3 (![0, 1] : Fin 2 → Fin S512x16383x3.rank)
  pads_S512x16383x3_S512x16384x3_000_010_000 : S512x16383x3.Pads (![0, 0, 0] : Fin 3 → Nat) ![0, 1, 0] ![0, 0, 0] S512x16384x3
  pads_S512x16383x3_S512x16384x3_000_100_000 : S512x16383x3.Pads (![0, 1, 0] : Fin 3 → Nat) ![0, 0, 0] ![0, 0, 0] S512x16384x3
  reducesTo_S512x16384x3_S512_d1_2 : S512x16384x3.ReducesTo [1, 2] S512
  bcast_S512_S512x1x1_0 : S512.BroadcastsInDim S512x1x1 (![0] : Fin 1 → Fin S512x1x1.rank)
  bcast_S512x1x1_S512x16384x3_0_1_2 : S512x1x1.BroadcastsInDim S512x16384x3 (![0, 1, 2] : Fin 3 → Fin S512x16384x3.rank)

variable [Facts₀]

class Facts : Prop extends Facts₀ where

variable [Facts]
-- ==== Proof.Spec.lean ====
/-
  One projection step of the chain-distance constraint, on ONE chain of 16384 points in ℝ³, over the reals,
  written twice.

  For a chain r : Fin 16384 → Fin 3 → ℝ the constraint is C(r) = ∑ⱼ (‖r(j+1) − r(j)‖² − 1)², j < 16383, and the step is
  r ↦ r − (C(r) / (‖∇C(r)‖² + ε)) · ∇C(r).

  * `stepK` spells it the way a program working on whole lanes does: differences with the CYCLIC neighbour
    (`nxt`, `prv`), the wrap-around segment switched off by a 0/1 mask, the gradient as
    4·(g(i−1) − g(i)) with g = seg·d, and the squared norm of the gradient as three sums over the chain, one per coordinate.
  * `stepR` spells it the way reverse-mode differentiation of C does: differences over the 16383 segments, the cotangent
    seg·1 + 1·seg, d·t + t·d, and the two shifted copies (one negated) padded with a zero and added.

  `stepK_eq_stepR`: the two are one function.
-/
import Mathlib.Algebra.BigOperators.Fin
import Mathlib.Data.Real.Basic
import Mathlib.Tactic.Ring
import Mathlib.Tactic.Linarith
import Mathlib.Tactic.Positivity
import Mathlib.Tactic.NormNum
import Mathlib.Tactic.FieldSimp

noncomputable section

namespace Cert.Pbd

/-- The ε of the step's denominator: the real number the f32 pattern 0x33D6BF95 denotes, 14073749 · 2⁻⁴⁷ (≈ 1e-7). -/
def eps : ℝ := 14073749 * (2 : ℝ) ^ (-47 : ℤ)

theorem eps_pos : 0 < eps := by unfold eps; positivity

/-- A chain: 16384 points of ℝ³. -/
abbrev Chain := Fin 16384 → Fin 3 → ℝ

/-- The cyclic successor and predecessor of a position on the chain. -/
def nxt (i : Fin 16384) : Fin 16384 := ⟨(i.val + 1) % 16384, Nat.mod_lt _ (by norm_num)⟩
def prv (i : Fin 16384) : Fin 16384 := ⟨(i.val + 16383) % 16384, Nat.mod_lt _ (by norm_num)⟩

/-! ## The lane-wise spelling -/

/-- 1 on the 16383 real segments, 0 on the wrap-around one. -/
def mask (i : Fin 16384) : ℝ := if i.val < 16383 then 1 else 0

def dK (r : Chain) (i : Fin 16384) (d : Fin 3) : ℝ := r (nxt i) d - r i d
def segK (r : Chain) (i : Fin 16384) : ℝ :=
  (((dK r i 0 * dK r i 0 + dK r i 1 * dK r i 1) + dK r i 2 * dK r i 2) - 1) * mask i
def consK (r : Chain) : ℝ := ∑ i : Fin 16384, segK r i * segK r i
def gK (r : Chain) (i : Fin 16384) (d : Fin 3) : ℝ := segK r i * dK r i d
def gradK (r : Chain) (i : Fin 16384) (d : Fin 3) : ℝ := 4 * (gK r (prv i) d - gK r i d)
def denK (r : Chain) : ℝ :=
  (((∑ i : Fin 16384, gradK r i 0 * gradK r i 0) + (∑ i : Fin 16384, gradK r i 1 * gradK r i 1))
    + (∑ i : Fin 16384, gradK r i 2 * gradK r i 2)) + eps
def stepK (r : Chain) : Chain := fun i d => r i d - consK r / denK r * gradK r i d

/-! ## The reverse-mode spelling -/

/-- The two ends of segment `j`. -/
def up (j : Fin 16383) : Fin 16384 := ⟨j.val + 1, by omega⟩
def lo (j : Fin 16383) : Fin 16384 := ⟨j.val, by omega⟩

def dR (r : Chain) (j : Fin 16383) (d : Fin 3) : ℝ := r (up j) d - r (lo j) d
def segR (r : Chain) (j : Fin 16383) : ℝ := (0 + ∑ d : Fin 3, dR r j d * dR r j d) - 1
def consR (r : Chain) : ℝ := 0 + ∑ j : Fin 16383, segR r j * segR r j
def tR (r : Chain) (j : Fin 16383) : ℝ := segR r j * 1 + 1 * segR r j
def uR (r : Chain) (j : Fin 16383) (d : Fin 3) : ℝ := dR r j d * tR r j + tR r j * dR r j d
def gradR (r : Chain) (i : Fin 16384) (d : Fin 3) : ℝ :=
  (if h : i.val < 16383 then -(uR r ⟨i.val, h⟩ d) else 0)
    + (if h : 1 ≤ i.val then uR r ⟨i.val - 1, by omega⟩ d else 0)
def denR (r : Chain) : ℝ := (0 + ∑ i : Fin 16384, ∑ d : Fin 3, gradR r i d * gradR r i d) + eps
def stepR (r : Chain) : Chain := fun i d => r i d - consR r / denR r * gradR r i d

/-! ## The denominators are positive -/

theorem denK_pos (r : Chain) : 0 < denK r := by
  unfold denK
  have h0 : 0 ≤ ∑ i : Fin 16384, gradK r i 0 * gradK r i 0 := Finset.sum_nonneg fun i _ => mul_self_nonneg _
  have h1 : 0 ≤ ∑ i : Fin 16384, gradK r i 1 * gradK r i 1 := Finset.sum_nonneg fun i _ => mul_self_nonneg _
  have h2 : 0 ≤ ∑ i : Fin 16384, gradK r i 2 * gradK r i 2 := Finset.sum_nonneg fun i _ => mul_self_nonneg _
  have := eps_pos
  linarith

theorem denR_pos (r : Chain) : 0 < denR r := by
  unfold denR
  have h0 : 0 ≤ ∑ i : Fin 16384, ∑ d : Fin 3, gradR r i d * gradR r i d :=
    Finset.sum_nonneg fun i _ => Finset.sum_nonneg fun d _ => mul_self_nonneg _
  have := eps_pos
  linarith

end Cert.Pbd

end
-- ==== Proof.SpecEq.lean ====
/-
  The two spellings of the projection step in the specification are one function.

  The lane-wise spelling walks over all 16384 positions with cyclic neighbours and switches the wrap-around
  segment off with a 0/1 mask; the reverse-mode spelling walks over the 16383 segments and pads with a zero.
  On the 16383 real segments the mask is 1 and the cyclic successor of the lower end is the upper end, so the
  segment residuals agree; at the last position the mask is 0, so the residual, and with it the term g = seg·d,
  vanishes there.  The cotangent d·t + t·d with t = seg·1 + 1·seg is 4·seg·d, which is where the factor 4 of the
  lane-wise gradient comes from.
-/
import proofs.«134223_j49976239456834_1_alg».proof.Proof.Spec

noncomputable section

namespace Cert.Pbd

/-! ## Positions and segments -/

/-- The cyclic successor of the lower end of a segment is its upper end (no wrap-around below 16383). -/
theorem nxt_lo (j : Fin 16383) : nxt (lo j) = up j := by
  apply Fin.ext
  show (j.val + 1) % 16384 = j.val + 1
  have := j.isLt
  omega

/-- A position below 16383 is the lower end of the segment with the same index. -/
theorem eq_lo (i : Fin 16384) (h : i.val < 16383) : i = lo ⟨i.val, h⟩ := Fin.ext rfl

/-- The cyclic predecessor of a position other than the first is the lower end of the segment before it. -/
theorem prv_eq_lo (i : Fin 16384) (h : 1 ≤ i.val) : prv i = lo ⟨i.val - 1, by omega⟩ := by
  apply Fin.ext
  show (i.val + 16383) % 16384 = i.val - 1
  have := i.isLt
  omega

/-- The cyclic predecessor of the first position is the last one. -/
theorem prv_val_of_zero (i : Fin 16384) (h : ¬ 1 ≤ i.val) : (prv i).val = 16383 := by
  show (i.val + 16383) % 16384 = 16383
  omega

theorem mask_of_lt (i : Fin 16384) (h : i.val < 16383) : mask i = 1 := by
  unfold mask
  exact if_pos h

theorem mask_of_last (i : Fin 16384) (h : i.val = 16383) : mask i = 0 := by
  unfold mask
  exact if_neg (by omega)

/-! ## Differences, residuals and the terms g = seg·d -/

theorem dK_lo (r : Chain) (j : Fin 16383) (d : Fin 3) : dK r (lo j) d = dR r j d := by
  unfold dK dR
  rw [nxt_lo]

theorem segK_lo (r : Chain) (j : Fin 16383) : segK r (lo j) = segR r j := by
  unfold segK segR
  rw [mask_of_lt (lo j) j.isLt, Fin.sum_univ_three, dK_lo, dK_lo, dK_lo]
  ring

/-- At the last position the mask kills the residual. -/
theorem segK_of_last (r : Chain) (i : Fin 16384) (h : i.val = 16383) : segK r i = 0 := by
  unfold segK
  rw [mask_of_last i h, mul_zero]

theorem gK_lo (r : Chain) (j : Fin 16383) (d : Fin 3) : gK r (lo j) d = segR r j * dR r j d := by
  unfold gK
  rw [segK_lo, dK_lo]

theorem gK_of_lt (r : Chain) (i : Fin 16384) (d : Fin 3) (h : i.val < 16383) :
    gK r i d = segR r ⟨i.val, h⟩ * dR r ⟨i.val, h⟩ d :=
  (congrArg (fun k => gK r k d) (eq_lo i h)).trans (gK_lo r ⟨i.val, h⟩ d)

theorem gK_of_last (r : Chain) (i : Fin 16384) (d : Fin 3) (h : i.val = 16383) : gK r i d = 0 := by
  unfold gK
  rw [segK_of_last r i h, zero_mul]

theorem gK_prv (r : Chain) (i : Fin 16384) (d : Fin 3) (h : 1 ≤ i.val) :
    gK r (prv i) d = segR r ⟨i.val - 1, by omega⟩ * dR r ⟨i.val - 1, by omega⟩ d := by
  rw [prv_eq_lo i h, gK_lo]

/-- The cotangent of a segment: d·t + t·d with t = seg·1 + 1·seg is 4·(seg·d). -/
theorem uR_eq (r : Chain) (j : Fin 16383) (d : Fin 3) : uR r j d = 4 * (segR r j * dR r j d) := by
  unfold uR tR
  ring

/-! ## Sums over the chain -/

/-- A sum over the 16384 positions is the sum over the lower ends of the 16383 segments plus the last term. -/
theorem sum16384 (f : Fin 16384 → ℝ) :
    ∑ i, f i = (∑ j : Fin 16383, f (lo j)) + f ⟨16383, by norm_num⟩ :=
  Fin.sum_univ_castSucc (n := 16383) f

theorem consK_eq_consR (r : Chain) : consK r = consR r := by
  unfold consK consR
  rw [sum16384, segK_of_last r ⟨16383, by norm_num⟩ rfl]
  simp only [segK_lo]
  ring

/-! ## The gradient -/

theorem gradK_eq_gradR (r : Chain) (i : Fin 16384) (d : Fin 3) : gradK r i d = gradR r i d := by
  unfold gradK gradR
  have hi := i.isLt
  by_cases hlt : i.val < 16383
  · by_cases h1 : 1 ≤ i.val
    · -- an inner position: both neighbours are real segments
      rw [dif_pos hlt, dif_pos h1, gK_prv r i d h1, gK_of_lt r i d hlt, uR_eq, uR_eq]
      ring
    · -- the first position: the predecessor is the last position, where g vanishes
      rw [dif_pos hlt, dif_neg h1, gK_of_last r (prv i) d (prv_val_of_zero i h1), gK_of_lt r i d hlt, uR_eq]
      ring
  · -- the last position: g vanishes here
    have h1 : 1 ≤ i.val := by omega
    rw [dif_neg hlt, dif_pos h1, gK_prv r i d h1, gK_of_last r i d (by omega), uR_eq]
    ring

theorem denK_eq_denR (r : Chain) : denK r = denR r := by
  unfold denK denR
  simp only [gradK_eq_gradR, Fin.sum_univ_three, Finset.sum_add_distrib]
  ring

/-! ## The step -/

theorem stepK_eq_stepR (r : Chain) : stepK r = stepR r := by
  funext i d
  unfold stepK stepR
  rw [consK_eq_consR, denK_eq_denR, gradK_eq_gradR]

end Cert.Pbd

end
-- ==== Proof.Finite.lean ====
/-
  Finite inputs are real numbers.

  The precondition says of every entry x of the argument that |x| < +∞ (the f32 pattern 0x7F800000), all entries
  conjoined; at the ideal values |x| is max x (−x), so x is neither infinity: it is the real number `x.toReal`.
-/
import proofs.«134223_j49976239456834_1_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.Pbd

open Idealize.ShloMosaic Idealize.ShloMosaic.ValueIdx

/-- The f32 pattern of +∞. -/
theorem ofBits_inf : Ideal.ofBits .f32 0x7F800000#32 = ⊤ := by simp [Ideal.ofBits, Ideal.ieee]

instance : Subsingleton Cert.Pre_finite_inputs.S_.Idx := ⟨fun a b => funext fun d => d.elim0⟩

/-- Under the precondition every entry of the argument is a real number. -/
theorem real_of_pre [Cert.Pre_finite_inputs.Facts] (X : FVec Ideal Cert.Pre_finite_inputs.S512x16384x3 .f32)
    (h : Cert.Pre_finite_inputs.fn (F := Ideal) X = fun _ => 1#1) (i : Cert.Pre_finite_inputs.S512x16384x3.Idx) :
    X i = (((X i).toReal : ℝ) : EReal) := by
  have e := congrFun h ix0
  dsimp only [Cert.Pre_finite_inputs.fn] at e
  have hi := Host.reduce_andi_all _ _ _ _ ix0 e i
  have hlt : max (X i) (-(X i)) < ⊤ := by
    have h1 : Ideal.cmp .olt (max (X i) (-(X i))) (Ideal.ofBits .f32 0x7F800000#32) = 1#1 := hi
    rw [ofBits_inf] at h1
    by_contra hn
    have h2 : Ideal.cmp .olt (max (X i) (-(X i))) ⊤ = 0#1 := by
      unfold Ideal.cmp
      show BitVec.ofBool (decide (max (X i) (-(X i)) < ⊤)) = 0#1
      rw [decide_eq_false hn]; rfl
    rw [h2] at h1
    exact absurd h1 (by decide)
  have h1 : X i ≠ ⊤ := fun h => by rw [h] at hlt; simp at hlt
  have h2 : X i ≠ ⊥ := fun h => by rw [h] at hlt; simp at hlt
  exact (EReal.coe_toReal h1 h2).symm

end Cert.Pbd

end
-- ==== Proof.KStep.lean ====
/-
  The kernel body as THREE applications of one step on a tile.

  A tile is three [16, 16384] arrays, one per spatial coordinate: row p is a chain, column q a position on it.
  One step computes, row by row: the differences with the cyclic successor (a rotation of the lanes by 16383), the
  masked segment residuals, their sum of squares along the row, the gradient 4·(g(q−1) − g(q)) with g = seg·d (a rotation
  by 1), the three row sums of the squared gradient plus ε, the quotient, and the update x − s·grad.
  `pieces_eq` says the three stored pieces of the body are that step applied three times to the loaded pieces.
-/
import proofs.«134223_j49976239456834_1_alg».proof.Proof.Gen.KernelIdeal.Frame
import Idealize.ShloMosaic.PureOps.Ideal

set_option maxRecDepth 16384

noncomputable section

namespace Cert.Pbd.Ker

open Idealize.ShloMosaic Cert.KernelIdeal Cert.KernelIdeal.Gen

/-- One coordinate of a tile. -/
abbrev Tile := FVec Ideal S16x16384 .f32
/-- One number per row of a tile. -/
abbrev Col := FVec Ideal S16x1 .f32

/-- Every row read one position ahead, cyclically. -/
def ahead (x : Tile) : Tile := dynamicRotate 1 16383#32 none x rotates_S16x16384_d1
/-- Every row read one position behind, cyclically. -/
def behind (x : Tile) : Tile := dynamicRotate 1 1#32 none x rotates_S16x16384_d1
/-- The difference with the cyclic successor. -/
def delta (x : Tile) : Tile := subf (ahead x) x
/-- The sum along each row. -/
def rowSum (v : Tile) : Col :=
  shapeCast S16x1 (multiReduction .add [1] S16 v 0x00000000#32 reduces_S16x16384_S16 (.inl rfl) rfl) shapeCasts_S16_S16x1
/-- The masked segment residuals. -/
def seg (m : FVec Ideal S1x16384 .f32) (x0 x1 x2 : Tile) : Tile :=
  mulf (subf (addf (addf (mulf (delta x0) (delta x0)) (mulf (delta x1) (delta x1))) (mulf (delta x2) (delta x2)))
      (broadcast S16x16384 (Scalar.ofBits .f32 0x3F800000#32)))
    (broadcastTo S16x16384 m broadcasts_S1x16384_S16x16384)
/-- One coordinate of the gradient, from the residuals and that coordinate's differences. -/
def grad (s d : Tile) : Tile :=
  mulf (broadcast S16x16384 (Scalar.ofBits .f32 0x40800000#32)) (subf (behind (mulf s d)) (mulf s d))
/-- The step length of each row. -/
def scale (m : FVec Ideal S1x16384 .f32) (x0 x1 x2 : Tile) : Col :=
  divf (rowSum (mulf (seg m x0 x1 x2) (seg m x0 x1 x2)))
    (addf (addf (addf (rowSum (mulf (grad (seg m x0 x1 x2) (delta x0)) (grad (seg m x0 x1 x2) (delta x0))))
          (rowSum (mulf (grad (seg m x0 x1 x2) (delta x1)) (grad (seg m x0 x1 x2) (delta x1)))))
        (rowSum (mulf (grad (seg m x0 x1 x2) (delta x2)) (grad (seg m x0 x1 x2) (delta x2)))))
      (broadcast S16x1 (Scalar.ofBits .f32 0x33D6BF95#32)))
/-- The updated coordinate `xd`, whose differences are `dd`. -/
def upd (m : FVec Ideal S1x16384 .f32) (x0 x1 x2 xd : Tile) : Tile :=
  subf xd (mulf (broadcastTo S16x16384 (scale m x0 x1 x2) broadcasts_S16x1_S16x16384) (grad (seg m x0 x1 x2) (delta xd)))

/-- One step on a tile. -/
def step (m : FVec Ideal S1x16384 .f32) (x : Tile × Tile × Tile) : Tile × Tile × Tile :=
  (upd m x.1 x.2.1 x.2.2 x.1, upd m x.1 x.2.1 x.2.2 x.2.1, upd m x.1 x.2.1 x.2.2 x.2.2)

/-- The 0/1 mask of the lanes: 1 below lane 16383. -/
abbrev laneMask : FVec Ideal S1x16384 .f32 := k0_pay4 (F := Ideal)

/-- The loaded pieces as a tile. -/
def loaded (x0 : Vec Ideal S3x16x16384 .f32) : Tile × Tile × Tile :=
  (k0_pay5 (View.ld x0 r0_0), k0_pay6 (View.ld x0 r0_1), k0_pay7 (View.ld x0 r0_2))

/-- The tile after three steps. -/
def three (x0 : Vec Ideal S3x16x16384 .f32) : Tile × Tile × Tile :=
  step laneMask (step laneMask (step laneMask (loaded x0)))

/-- What the body leaves in the output buffer: the three coordinates after three steps, each stored as one
    [1, 16, 16384] piece. -/
theorem pieces_eq (x0 : Vec Ideal S3x16x16384 .f32) :
    out0_1 x0 = View.canon [⟨r0_2, k0_pay3 (three x0).2.2⟩, ⟨r0_1, k0_pay2 (three x0).2.1⟩, ⟨r0_0, k0_pay1 (three x0).1⟩] := rfl

end Cert.Pbd.Ker

end
-- ==== Proof.Consts.lean ====
/-
  The float constants the two programs spell, as the extended reals their f32 patterns denote: 0, 1, 4 and the
  ε of the step's denominator (14073749 · 2⁻⁴⁷, the f32 nearest 1e-7).
-/
import Idealize.ShloMosaic.PureOps.Ideal
import proofs.«134223_j49976239456834_1_alg».proof.Proof.Spec

noncomputable section

namespace Cert.Pbd.Consts

open Idealize.ShloMosaic

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]
  try norm_num

theorem ofBits_four : Ideal.ofBits .f32 0x40800000#32 = ((4 : ℝ) : EReal) := by
  simp [Ideal.ofBits, Ideal.ieee, -EReal.coe_mul]
  try norm_num

theorem ofBits_eps : Ideal.ofBits .f32 0x33D6BF95#32 = ((Cert.Pbd.eps : ℝ) : EReal) := by
  simp [Ideal.ofBits, Ideal.ieee, -EReal.coe_mul, Cert.Pbd.eps]
  try norm_num

end Cert.Pbd.Consts

end
-- ==== Proof.KReal.lean ====
/-
  One step on a tile, read on REAL entries.

  If the three coordinates of a tile hold real numbers — row p the chain R p — then after one step they hold the
  chains `stepK (R p)` of the specification's lane-wise spelling. Every operation of the step is read at an entry:
  the rotations move the column cyclically, the mask is 1 below column 16383 and 0 there, a row sum is the finite sum
  of the row, and the quotient of two reals with a positive divisor is the real quotient.
-/
import proofs.«134223_j49976239456834_1_alg».proof.Proof.KStep
import proofs.«134223_j49976239456834_1_alg».proof.Proof.Spec
import proofs.«134223_j49976239456834_1_alg».proof.Proof.Consts
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import Idealize.ShloMosaic.Lib.WordArith
import Idealize.ShloMosaic.Lib.Affine

set_option maxRecDepth 16384

noncomputable section

namespace Cert.Pbd.Ker

open Idealize.ShloMosaic Idealize.ShloMosaic.ValueIdx Cert.KernelIdeal Cert.KernelIdeal.Gen Cert.Pbd

/-- The real numbers include into the extended reals additively over finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A tile coordinate whose entries are the reals `f p q`. -/
def IsR (v : Tile) (f : Fin 16 → Fin 16384 → ℝ) : Prop := ∀ p q, v (ix2 p q) = ((f p q : ℝ) : EReal)
/-- A column whose entries are the reals `f p`. -/
def IsC (c : Col) (f : Fin 16 → ℝ) : Prop := ∀ p, c (ix2 p (0 : Fin 1)) = ((f p : ℝ) : EReal)

theorem IsR.sub {a b : Tile} {f g : Fin 16 → Fin 16384 → ℝ} (ha : IsR a f) (hb : IsR b g) :
    IsR (subf a b) (fun p q => f p q - g p q) := by
  intro p q
  show a (ix2 p q) - b (ix2 p q) = _
  rw [ha, hb]; exact (EReal.coe_sub _ _).symm

theorem IsR.add {a b : Tile} {f g : Fin 16 → Fin 16384 → ℝ} (ha : IsR a f) (hb : IsR b g) :
    IsR (addf a b) (fun p q => f p q + g p q) := by
  intro p q
  show a (ix2 p q) + b (ix2 p q) = _
  rw [ha, hb]; exact (EReal.coe_add _ _).symm

theorem IsR.mul {a b : Tile} {f g : Fin 16 → Fin 16384 → ℝ} (ha : IsR a f) (hb : IsR b g) :
    IsR (mulf a b) (fun p q => f p q * g p q) := by
  intro p q
  show a (ix2 p q) * b (ix2 p q) = _
  rw [ha, hb]; exact (EReal.coe_mul _ _).symm

/-- A splat constant whose pattern denotes the real `c`. -/
theorem IsR.const (w : BitVec 32) (c : ℝ) (h : Ideal.ofBits .f32 w = ((c : ℝ) : EReal)) :
    IsR (broadcast S16x16384 (Scalar.ofBits (F := Ideal) .f32 w)) (fun _ _ => c) := fun _ _ => h

theorem IsC.const (w : BitVec 32) (c : ℝ) (h : Ideal.ofBits .f32 w = ((c : ℝ) : EReal)) :
    IsC (broadcast S16x1 (Scalar.ofBits (F := Ideal) .f32 w)) (fun _ => c) := fun _ => h

theorem IsC.add {a b : Col} {f g : Fin 16 → ℝ} (ha : IsC a f) (hb : IsC b g) : IsC (addf a b) (fun p => f p + g p) := by
  intro p
  show a (ix2 p 0) + b (ix2 p 0) = _
  rw [ha, hb]; exact (EReal.coe_add _ _).symm

/-- The quotient of two real columns, the divisor nowhere zero. -/
theorem IsC.div {a b : Col} {f g : Fin 16 → ℝ} (ha : IsC a f) (hb : IsC b g) (hg : ∀ p, g p ≠ 0) :
    IsC (divf a b) (fun p => f p / g p) := by
  intro p
  show Ideal.div (a (ix2 p 0)) (b (ix2 p 0)) = _
  rw [ha, hb, Ideal.div_coe (hg p), ← EReal.coe_mul, mul_one_div]

/-- Rows read one column ahead. -/
theorem IsR.ahead {a : Tile} {f : Fin 16 → Fin 16384 → ℝ} (ha : IsR a f) : IsR (ahead a) (fun p q => f p (nxt q)) := by
  intro p q
  have e : Ker.ahead a (ix2 p q) = a (ix2 p (nxt q)) :=
    dynamicRotate_apply 1 16383#32 a rotates_S16x16384_d1 (ix2 p q) (ix2 p (nxt q)) (fun b => by
      match b with
      | ⟨0, _⟩ => rfl
      | ⟨1, _⟩ =>
        show (q.val + 1) % 16384 = (q.val + 16384 - 16383 % 16384) % 16384
        omega)
  rw [e, ha]

/-- Rows read one column behind. -/
theorem IsR.behind {a : Tile} {f : Fin 16 → Fin 16384 → ℝ} (ha : IsR a f) : IsR (behind a) (fun p q => f p (prv q)) := by
  intro p q
  have e : Ker.behind a (ix2 p q) = a (ix2 p (prv q)) :=
    dynamicRotate_apply 1 1#32 a rotates_S16x16384_d1 (ix2 p q) (ix2 p (prv q)) (fun b => by
      match b with
      | ⟨0, _⟩ => rfl
      | ⟨1, _⟩ =>
        show (q.val + 16383) % 16384 = (q.val + 16384 - 1 % 16384) % 16384
        omega)
  rw [e, ha]

/-- The sum along each row. -/
theorem IsC.rowSum {v : Tile} {f : Fin 16 → Fin 16384 → ℝ} (hv : IsR v f) : IsC (rowSum v) (fun p => ∑ q : Fin 16384, f p q) := by
  intro p
  have e1 : Ker.rowSum v (ix2 p (0 : Fin 1))
      = multiReduction .add [1] S16 v 0x00000000#32 reduces_S16x16384_S16 (.inl rfl) rfl (ix1 p) :=
    shapeCast_apply _ shapeCasts_S16_S16x1 (ix2 p (0 : Fin 1)) (ix1 p) (by
      rw [Shape.rowMajor_val_one, Shape.rowMajor_val_two]
      show p.val = p.val * 1 + 0
      omega)
  rw [e1]
  refine (Ideal.multiReduction_add_single v 0x00000000#32 reduces_S16x16384_S16 (.inl rfl) rfl (ix1 p)).trans ?_
  rw [coe_sum]
  refine Finset.sum_congr rfl fun k _ => ?_
  have e2 : reduces_S16x16384_S16.lift (ix1 p) k = ix2 p k := by
    funext a; match a with | ⟨0, _⟩ => rfl | ⟨1, _⟩ => rfl
  rw [e2]; exact hv p k

/-- A column broadcast along the rows. -/
theorem IsR.ofCol {c : Col} {f : Fin 16 → ℝ} (hc : IsC c f) :
    IsR (broadcastTo S16x16384 c broadcasts_S16x1_S16x16384) (fun p _ => f p) := by
  intro p q
  have e : broadcastTo S16x16384 c broadcasts_S16x1_S16x16384 (ix2 p q) = c (ix2 p (0 : Fin 1)) :=
    broadcastTo_apply c broadcasts_S16x1_S16x16384 (ix2 p q) (ix2 p (0 : Fin 1)) (fun a => by
      match a with
      | ⟨0, _⟩ => rfl
      | ⟨1, _⟩ => rfl)
  rw [e, hc]

/-- The lane mask broadcast down the rows: 1 below column 16383, 0 there. -/
theorem IsR.mask : IsR (broadcastTo S16x16384 laneMask broadcasts_S1x16384_S16x16384) (fun _ q => mask q) := by
  intro p q
  rw [broadcastTo_1b_ab_apply]
  unfold laneMask k0_pay4
  show (Scalar.sitofp (F := Ideal) .f32 ((IntOp.cmpi .slt (iota .tc S1x16384 32 [1] iota_S1x16384_d1_w32 (ix2 (0 : Fin 1) q)) 16383#32).setWidth 32)) = _
  rw [iota_single_apply]
  show Scalar.sitofp (F := Ideal) .f32 ((IntOp.cmpi .slt (BitVec.ofNat 32 q.val) 16383#32).setWidth 32) = _
  have hq : (BitVec.ofNat 32 q.val).toInt = q.val := WordArith.toInt_ofNat_small q.val (by have := q.isLt; omega)
  have hc : (16383#32 : BitVec 32).toInt = 16383 := by decide
  by_cases h : q.val < 16383
  · have e : IntOp.cmpi .slt (BitVec.ofNat 32 q.val) 16383#32 = 1#1 := IntOp.cmpi_slt.2 (by rw [hq, hc]; omega)
    rw [e, Ideal.scalar_sitofp_def]
    show _ = (((if q.val < 16383 then (1 : ℝ) else 0) : ℝ) : EReal)
    rw [if_pos h, show (BitVec.setWidth 32 1#1).toInt = 1 from by decide]
    norm_num
  · have e : IntOp.cmpi .slt (BitVec.ofNat 32 q.val) 16383#32 = 0#1 :=
      eq_zero_of_ne_one (fun h1 => h (by have := IntOp.cmpi_slt.1 h1; rw [hq, hc] at this; omega))
    rw [e, Ideal.scalar_sitofp_def]
    show _ = (((if q.val < 16383 then (1 : ℝ) else 0) : ℝ) : EReal)
    rw [if_neg h, show (BitVec.setWidth 32 0#1).toInt = 0 from by decide]
    norm_num

/-! ## The step -/

section Step
variable {x0 x1 x2 : Tile} {R : Fin 16 → Chain}
  (h0 : IsR x0 (fun p q => R p q 0)) (h1 : IsR x1 (fun p q => R p q 1)) (h2 : IsR x2 (fun p q => R p q 2))
include h0 h1 h2

theorem delta_real {xd : Tile} {d : Fin 3} (hd : IsR xd (fun p q => R p q d)) :
    IsR (delta xd) (fun p q => dK (R p) q d) := hd.ahead.sub hd

theorem seg_real : IsR (seg laneMask x0 x1 x2) (fun p q => segK (R p) q) :=
  ((((delta_real h0 h1 h2 h0).mul (delta_real h0 h1 h2 h0)).add ((delta_real h0 h1 h2 h1).mul (delta_real h0 h1 h2 h1))).add
      ((delta_real h0 h1 h2 h2).mul (delta_real h0 h1 h2 h2))).sub (IsR.const _ 1 Consts.ofBits_one) |>.mul IsR.mask

theorem grad_real {xd : Tile} {d : Fin 3} (hd : IsR xd (fun p q => R p q d)) :
    IsR (grad (seg laneMask x0 x1 x2) (delta xd)) (fun p q => gradK (R p) q d) :=
  (IsR.const _ 4 Consts.ofBits_four).mul
    ((((seg_real h0 h1 h2).mul (delta_real h0 h1 h2 hd)).behind).sub ((seg_real h0 h1 h2).mul (delta_real h0 h1 h2 hd)))

theorem scale_real : IsC (scale laneMask x0 x1 x2) (fun p => consK (R p) / denK (R p)) :=
  IsC.div (IsC.rowSum ((seg_real h0 h1 h2).mul (seg_real h0 h1 h2)))
    ((((IsC.rowSum ((grad_real h0 h1 h2 h0).mul (grad_real h0 h1 h2 h0))).add
          (IsC.rowSum ((grad_real h0 h1 h2 h1).mul (grad_real h0 h1 h2 h1)))).add
        (IsC.rowSum ((grad_real h0 h1 h2 h2).mul (grad_real h0 h1 h2 h2)))).add (IsC.const _ eps Consts.ofBits_eps))
    (fun p => (denK_pos (R p)).ne')

theorem upd_real {xd : Tile} {d : Fin 3} (hd : IsR xd (fun p q => R p q d)) :
    IsR (upd laneMask x0 x1 x2 xd) (fun p q => stepK (R p) q d) :=
  hd.sub ((IsR.ofCol (scale_real h0 h1 h2)).mul (grad_real h0 h1 h2 hd))

/-- One step on a tile of real chains is `stepK` on each chain. -/
theorem step_real :
    IsR (step laneMask (x0, x1, x2)).1 (fun p q => stepK (R p) q 0)
      ∧ IsR (step laneMask (x0, x1, x2)).2.1 (fun p q => stepK (R p) q 1)
      ∧ IsR (step laneMask (x0, x1, x2)).2.2 (fun p q => stepK (R p) q 2) :=
  ⟨upd_real h0 h1 h2 h0, upd_real h0 h1 h2 h1, upd_real h0 h1 h2 h2⟩

end Step

/-- The same for a tile given as a triple. -/
theorem step_real' (x : Tile × Tile × Tile) (R : Fin 16 → Chain)
    (h0 : IsR x.1 (fun p q => R p q 0)) (h1 : IsR x.2.1 (fun p q => R p q 1)) (h2 : IsR x.2.2 (fun p q => R p q 2)) :
    IsR (step laneMask x).1 (fun p q => stepK (R p) q 0)
      ∧ IsR (step laneMask x).2.1 (fun p q => stepK (R p) q 1)
      ∧ IsR (step laneMask x).2.2 (fun p q => stepK (R p) q 2) :=
  step_real h0 h1 h2

end Cert.Pbd.Ker

end
-- ==== Proof.KBlock.lean ====
/-
  What one grid point leaves in its output block, on real entries.

  The block a point loads is three [16, 16384] coordinates; if entry (d, p, q) of the loaded block is the real
  `Q p q d` — row p the chain `Q p` — then entry (d, p, q) of the stored block is the chain after three steps,
  `stepK (stepK (stepK (Q p))) q d`: the loaded pieces are the block's three coordinates, the three steps act row by row,
  and the three stored pieces tile the block.
-/
import proofs.«134223_j49976239456834_1_alg».proof.Proof.KReal

set_option maxRecDepth 16384

noncomputable section

namespace Cert.Pbd.Ker

open Idealize.ShloMosaic Idealize.ShloMosaic.ValueIdx Cert.KernelIdeal Cert.KernelIdeal.Gen Cert.Pbd

/-- Three steps of a chain. -/
def step3 (r : Chain) : Chain := stepK (stepK (stepK r))

/-- A [1, 16, 16384] piece loaded at coordinate `d` and viewed as a tile coordinate reads the block there. -/
theorem ld_apply (x0 : Vec Ideal S3x16x16384 .f32) (off : Fin 3 → Nat) (inb) (d : Fin 3) (hd : off = ![d.val, 0, 0])
    (p : Fin 16) (q : Fin 16384) :
    View.ld x0 (Rect.unit (s := S3x16x16384) off S1x16x16384.size inb) (ix3 (0 : Fin 1) p q) = x0 (ix3 d p q) := by
  subst hd
  show x0 _ = x0 _
  refine congrArg x0 (funext fun a => Fin.ext ?_)
  match a with
  | ⟨0, _⟩ => show d.val + 1 * 0 = d.val; omega
  | ⟨1, _⟩ => show 0 + 1 * p.val = p.val; omega
  | ⟨2, _⟩ => show 0 + 1 * q.val = q.val; omega

/-- The loaded pieces of a block of real chains. -/
theorem loaded_real (x0 : Vec Ideal S3x16x16384 .f32) (Q : Fin 16 → Chain)
    (hx : ∀ (d : Fin 3) (p : Fin 16) (q : Fin 16384), x0 (ix3 d p q) = ((Q p q d : ℝ) : EReal)) :
    IsR (loaded x0).1 (fun p q => Q p q 0) ∧ IsR (loaded x0).2.1 (fun p q => Q p q 1)
      ∧ IsR (loaded x0).2.2 (fun p q => Q p q 2) := by
  refine ⟨fun p q => ?_, fun p q => ?_, fun p q => ?_⟩
  · show k0_pay5 (View.ld x0 r0_0) (ix2 p q) = _
    unfold k0_pay5
    rw [shapeCast_1ab_ab_apply]
    exact (ld_apply x0 _ _ 0 rfl p q).trans (hx 0 p q)
  · show k0_pay6 (View.ld x0 r0_1) (ix2 p q) = _
    unfold k0_pay6
    rw [shapeCast_1ab_ab_apply]
    exact (ld_apply x0 _ _ 1 rfl p q).trans (hx 1 p q)
  · show k0_pay7 (View.ld x0 r0_2) (ix2 p q) = _
    unfold k0_pay7
    rw [shapeCast_1ab_ab_apply]
    exact (ld_apply x0 _ _ 2 rfl p q).trans (hx 2 p q)

/-- The tile after three steps, of a block of real chains. -/
theorem three_real (x0 : Vec Ideal S3x16x16384 .f32) (Q : Fin 16 → Chain)
    (hx : ∀ (d : Fin 3) (p : Fin 16) (q : Fin 16384), x0 (ix3 d p q) = ((Q p q d : ℝ) : EReal)) :
    IsR (three x0).1 (fun p q => step3 (Q p) q 0) ∧ IsR (three x0).2.1 (fun p q => step3 (Q p) q 1)
      ∧ IsR (three x0).2.2 (fun p q => step3 (Q p) q 2) := by
  obtain ⟨a0, a1, a2⟩ := loaded_real x0 Q hx
  obtain ⟨b0, b1, b2⟩ := step_real' (loaded x0) Q a0 a1 a2
  obtain ⟨c0, c1, c2⟩ := step_real' (step laneMask (loaded x0)) (fun p => stepK (Q p)) b0 b1 b2
  exact step_real' (step laneMask (step laneMask (loaded x0))) (fun p => stepK (stepK (Q p))) c0 c1 c2

/-- A tile coordinate viewed as a [1, 16, 16384] piece. -/
theorem piece_apply (v : Tile) (f : Fin 16 → Fin 16384 → ℝ) (hv : IsR v f) (h : S16x16384.ShapeCasts S1x16x16384)
    (x : S1x16x16384.Idx) : shapeCast S1x16x16384 v h x = ((f (x 1) (x 2) : ℝ) : EReal) := by
  rw [eq_ix3 x]
  exact (shapeCast_ab_1ab_apply v h (x 0) (x 1) (x 2)).trans (hv (x 1) (x 2))

/-- Where the piece stored at coordinate `d` lands in the block. -/
theorem emb_piece (off : Fin 3 → Nat) (inb) (d : Fin 3) (hd : off = ![d.val, 0, 0]) (x : S1x16x16384.Idx) :
    (Rect.unit (s := S3x16x16384) off S1x16x16384.size inb).emb x = ix3 d (x 1) (x 2) := by
  subst hd
  funext a
  apply Fin.ext
  have h0 : (x 0).val < 1 := (x 0).isLt
  match a with
  | ⟨0, _⟩ => show d.val + 1 * (x 0).val = d.val; omega
  | ⟨1, _⟩ => show 0 + 1 * (x 1).val = (x 1).val; omega
  | ⟨2, _⟩ => show 0 + 1 * (x 2).val = (x 2).val; omega

/-- The stored block as one function of its index: the chain of row `y 1` after three steps, at position `y 2`,
    coordinate `y 0`. -/
def blockFn (Q : Fin 16 → Chain) : S3x16x16384.Idx → Elt Ideal .f32 :=
  fun y => ((step3 (Q (y 1)) (y 2) (y 0) : ℝ) : EReal)

/-- THE BLOCK A POINT STORES, entry by entry: the loaded chains after three steps. -/
theorem out_apply (x0 : Vec Ideal S3x16x16384 .f32) (Q : Fin 16 → Chain)
    (hx : ∀ (d : Fin 3) (p : Fin 16) (q : Fin 16384), x0 (ix3 d p q) = ((Q p q d : ℝ) : EReal))
    (d : Fin 3) (p : Fin 16) (q : Fin 16384) :
    out0_1 x0 (ix3 d p q) = ((step3 (Q p) q d : ℝ) : EReal) := by
  obtain ⟨c0, c1, c2⟩ := three_real x0 Q hx
  rw [pieces_eq]
  refine View.canon_apply_of_pieces (Val := Elt Ideal) (blockFn Q) _ ?_ (ix3 d p q) (cover0_1 _ _ _ _)
  intro pc hpc x
  simp only [List.mem_cons, List.mem_nil_iff, or_false] at hpc
  rcases hpc with rfl | rfl | rfl
  · show k0_pay3 (three x0).2.2 x = _
    unfold k0_pay3
    exact (piece_apply _ _ c2 _ x).trans (congrArg (blockFn Q) (emb_piece _ inb_S3x16x16384_S1x16x16384_2_0_0 2 rfl x)).symm
  · show k0_pay2 (three x0).2.1 x = _
    unfold k0_pay2
    exact (piece_apply _ _ c1 _ x).trans (congrArg (blockFn Q) (emb_piece _ inb_S3x16x16384_S1x16x16384_1_0_0 1 rfl x)).symm
  · show k0_pay1 (three x0).1 x = _
    unfold k0_pay1
    exact (piece_apply _ _ c0 _ x).trans (congrArg (blockFn Q) (emb_piece _ inb_S3x16x16384_S1x16x16384_0_0_0 0 rfl x)).symm

end Cert.Pbd.Ker

end
-- ==== Proof.KArray.lean ====
/-
  From the blocks to the arrays: what the kernel's program leaves in its result.

  The program transposes the argument [512, 16384, 3] to [3, 512, 16384], runs the body on the 32 blocks of 16 rows
  (block t holds rows 16t … 16t+15, all positions, all three coordinates), and transposes back. If the argument's entry
  (b, q, d) is the real `R b q d`, each point stores the three-step image of its 16 chains, the 32 blocks tile the
  array, and the result's entry (b, q, d) is `step3 (R b) q d`.
-/
import proofs.«134223_j49976239456834_1_alg».proof.Proof.KBlock
import Idealize.ShloMosaic.Lib.StableHlo.Run
import Idealize.ShloMosaic.Lib.Tactic

set_option maxRecDepth 16384

noncomputable section

namespace Cert.Pbd.Ker

open Idealize.ShloMosaic Idealize.ShloMosaic.TcCoe Idealize.SL.Sem Idealize.ShloMosaic.ValueIdx
open Cert.KernelIdeal Cert.KernelIdeal.Gen Cert.Pbd
open Idealize.ShloMosaic.Pipeline (Dat)

variable (m : (ℓ : Loc nD τ sig) → Buf (Elt Ideal) ℓ) (ρ : Dev nD → PrngReg)

/-- Both windows' blocks at point `t`: all three coordinates, rows 16t …, all positions. -/
theorem idx_facts : ∀ t : Fin cfg0.N, win0_0.index t (0 : Fin 3) = 0 ∧ win0_0.index t (1 : Fin 3) = t.val
    ∧ win0_0.index t (2 : Fin 3) = 0 ∧ win0_1.index t (0 : Fin 3) = 0 ∧ win0_1.index t (1 : Fin 3) = t.val
    ∧ win0_1.index t (2 : Fin 3) = 0 :=
  (by decide +kernel : ∀ t : Fin grid0.N, _)

/-- Row `p` of block `t` is row `16 t + p` of the array. -/
def row (t : Fin cfg0.N) (p : Fin 16) : Fin 512 :=
  ⟨16 * t.val + p.val, by have := t.isLt; have hN : cfg0.N = 32 := N_0; omega⟩

/-- The array the region reads is the argument transposed. -/
theorem V_main_v0 (c : Dev nD) :
    (V m c main_v0 : S3x512x16384.Idx → Elt Ideal .f32)
      = transpose S3x512x16384 [2, 0, 1] (m ((c : Thread nD τ).loc main_arg0)) transposes_S512x16384x3_S3x512x16384_2_0_1 := by
  show StableHlo.after hostOps0 (fun b => m (c, b)) (Proc.devRef .tc main_v0) = _
  after_results

/-- The input block at point `t`, entry by entry, in the argument. -/
theorem iblk_apply (c : Dev nD) (t : Fin cfg0.N) (d : Fin 3) (p : Fin 16) (q : Fin 16384) :
    (iblk m c 0 t : Vec Ideal S3x16x16384 .f32) (ix3 d p q)
      = (m ((c : Thread nD τ).loc main_arg0) : S512x16384x3.Idx → Elt Ideal .f32) (ix3 (row t p) q d) := by
  obtain ⟨e0, e1, e2, -, -, -⟩ := idx_facts t
  unfold iblk
  rw [View.read_apply]
  show V m c main_v0 _ = _
  rw [V_main_v0]
  refine transpose_apply _ _ _ _ _ (fun b => ?_)
  match b with
  | ⟨0, _⟩ => show d.val = win0_0.index t (0 : Fin 3) * 3 + 1 * d.val; rw [e0]; omega
  | ⟨1, _⟩ => show 16 * t.val + p.val = win0_0.index t (1 : Fin 3) * 16 + 1 * p.val; rw [e1]; omega
  | ⟨2, _⟩ => show q.val = win0_0.index t (2 : Fin 3) * 16384 + 1 * q.val; rw [e2]; omega

/-- An index of the written array is in point `t`'s block iff each coordinate is in the block's range on its axis. -/
theorem mem_blk (t : Fin cfg0.N) (i : S3x512x16384.Idx) :
    i ∈ ((cfg0.win 1).blk t).view.set ↔ ∀ a : Fin 3, win0_1.index t a * S3x16x16384.size a ≤ (i a).val
      ∧ (i a).val < win0_1.index t a * S3x16x16384.size a + S3x16x16384.size a := by
  show i ∈ ((View.whole main_v1).slice (win0_1.rect t)).set ↔ _
  rw [View.set_slice_whole, Rect.mem_set_unit]
  exact Iff.rfl

/-- Every index of the written array is in the block of the point its row belongs to. -/
theorem cover (i : S3x512x16384.Idx) :
    ∃ t : Fin cfg0.N, (cfg0.win 1).flush t = true ∧ i ∈ ((cfg0.win 1).blk t).view.set := by
  have h0 : (i 0).val < 3 := (i 0).isLt
  have h1 : (i 1).val < 512 := (i 1).isLt
  have h2 : (i 2).val < 16384 := (i 2).isLt
  have hN : cfg0.N = 32 := N_0
  obtain ⟨t, ht⟩ : ∃ t : Fin cfg0.N, t.val = (i 1).val / 16 := ⟨⟨(i 1).val / 16, by omega⟩, rfl⟩
  refine ⟨t, flush0_1 t, ?_⟩
  rw [mem_blk]
  obtain ⟨-, -, -, e0, e1, e2⟩ := idx_facts t
  intro a
  match a with
  | ⟨0, _⟩ =>
    show win0_1.index t (0 : Fin 3) * 3 ≤ (i 0).val ∧ (i 0).val < win0_1.index t (0 : Fin 3) * 3 + 3
    rw [e0]; omega
  | ⟨1, _⟩ =>
    show win0_1.index t (1 : Fin 3) * 16 ≤ (i 1).val ∧ (i 1).val < win0_1.index t (1 : Fin 3) * 16 + 16
    rw [e1, ht]; omega
  | ⟨2, _⟩ =>
    show win0_1.index t (2 : Fin 3) * 16384 ≤ (i 2).val ∧ (i 2).val < win0_1.index t (2 : Fin 3) * 16384 + 16384
    rw [e2]; omega

/-- The array the region writes, as one function of its index: row `y 1`'s chain after three steps. -/
def arrayFn (R : Fin 512 → Chain) : S3x512x16384.Idx → Elt Ideal .f32 :=
  fun y => ((step3 (R (y 1)) (y 2) (y 0) : ℝ) : EReal)

/-- The result array as one function of its index. -/
def resultFn (R : Fin 512 → Chain) : S512x16384x3.Idx → Elt Ideal .f32 :=
  fun i => ((step3 (R (i 0)) (i 1) (i 2) : ℝ) : EReal)

section Real
variable (c : Dev nD) (R : Fin 512 → Chain)
  (hR : ∀ (b : Fin 512) (q : Fin 16384) (d : Fin 3),
    (m ((c : Thread nD τ).loc main_arg0) : S512x16384x3.Idx → Elt Ideal .f32) (ix3 b q d) = ((R b q d : ℝ) : EReal))
include hR

/-- The stored block as a function of its index. -/
theorem out_fn (t : Fin cfg0.N) (y : S3x16x16384.Idx) :
    out0_1 (iblk m c 0 t) y = blockFn (fun p => R (row t p)) y := by
  rw [eq_ix3 y]
  exact out_apply (iblk m c 0 t) (fun p => R (row t p))
    (fun d p q => (iblk_apply m c t d p q).trans (hR (row t p) q d)) (y 0) (y 1) (y 2)

/-- WHAT POINT `t` WRITES BACK is block `t` of `arrayFn R`. -/
theorem flushed_eq (t : Fin cfg0.N) :
    (dats m 0 c).flushed 1 t = ((cfg0.win 1).blk t).view.read (Elt Ideal) (arrayFn R) := by
  show (cfg0.win 1).cut (grid0.coords t) ((dats m 0 c).after 1 t) = _
  rw [after0_1]
  obtain ⟨-, -, -, e0, e1, e2⟩ := idx_facts t
  funext j
  show out0_1 (iblk m c 0 t) j = arrayFn R (((cfg0.win 1).blk t).view.emb j)
  rw [out_fn m c R hR t j]
  have e : ((cfg0.win 1).blk t).view.emb j = ix3 (n0 := 3) (n1 := 512) (n2 := 16384) (j 0) (row t (j 1)) (j 2) := by
    funext a
    apply Fin.ext
    match a with
    | ⟨0, _⟩ => show win0_1.index t (0 : Fin 3) * 3 + 1 * (j 0).val = (j 0).val; rw [e0]; omega
    | ⟨1, _⟩ => show win0_1.index t (1 : Fin 3) * 16 + 1 * (j 1).val = 16 * t.val + (j 1).val; rw [e1]; omega
    | ⟨2, _⟩ => show win0_1.index t (2 : Fin 3) * 16384 + 1 * (j 2).val = (j 2).val; rw [e2]; omega
  rw [e]
  rfl

/-- THE WRITTEN ARRAY after the run: the 32 blocks tile it. -/
theorem final : (dats m 0 c).arrAt 1 cfg0.N = arrayFn R :=
  (dats m 0 c).arrAt_eq_of_cover 1 (arrayFn R) (fun t _ => flushed_eq m c R hR t) cover

/-- THE RESULT: the written array transposed back; entry (b, q, d) is chain b after three steps at position q,
    coordinate d. -/
theorem result_eq :
    Pipeline.afterTail₀ cfgs (dats m) 0 (V0 m) [hostOps1] c main_v2 = resultFn R := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = arrayFn R :=
    (Pipeline.withArrays_arr spec0 launch0.win.arr_inj c _ _ 1).trans (final m c R hR)
  rw [hw]
  funext i
  rw [eq_ix3 i]
  refine (transpose_apply _ _ _ _ (ix3 (i 2) (i 0) (i 1)) (fun b => ?_)).trans rfl
  match b with
  | ⟨0, _⟩ => rfl
  | ⟨1, _⟩ => rfl
  | ⟨2, _⟩ => rfl

end Real

/-- THE RUN, READ: from a memory whose argument holds the real chains `R c`, every weakly fair execution terminates with
    the result at the chains after three steps and the argument unchanged. -/
theorem run (R : Dev nD → Fin 512 → Chain)
    (hR : ∀ (c : Dev nD) (b : Fin 512) (q : Fin 16384) (d : Fin 3),
      (m ((c : Thread nD τ).loc main_arg0) : S512x16384x3.Idx → Elt Ideal .f32) (ix3 b q d) = ((R c b q d : ℝ) : EReal)) :
    θ_run defs (onTc (τ := τ) (main (F := Ideal))) ⟨m, fun _ => 0, ρ⟩ fun r => ∀ c : Dev nD,
      r.2.mem ((c : Thread nD τ).loc main_v2) = resultFn (R c)
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c (R c) (hR c)),
        ((h c).2 main_arg0 (Pipeline.mem_restRefs_of main_arg0 (by decide) (by decide))).trans (W_main_arg0 m (dats m) c)⟩)
    (run_main m ρ)

end Cert.Pbd.Ker

end
-- ==== Proof.RefStep.lean ====
/-
  The reference program's one projection step as a function of the positions array, and the program's result as
  that function applied three times.

  The program computes, three times over, from a positions array X of shape [512, 16384, 3]:
    d     = X[:, 1:, :] − X[:, :−1, :]                      (the 16383 segment vectors of each chain)
    seg   = (0 + ∑_d d·d) − 1                               (squared length minus one, per segment)
    t     = seg·1 + 1·seg                                   (the cotangent of seg·seg)
    u     = d·t + t·d                                       (the cotangent of the segment vectors)
    grad  = pad(−u, one zero row behind) + pad(u, one zero row in front)
    X'    = X − ((0 + ∑_j seg·seg) / ((0 + ∑_{i,d} grad·grad) + ε)) · grad
  rstep is that map X ↦ X', spelt operation by operation as the generated run's term spells it, so that the run's
  result term folds to rstep (rstep (rstep X)) by unfolding names alone.
-/
import proofs.«134223_j49976239456834_1_alg».proof.Proof.Gen.ReferenceIdeal.Run
import proofs.«134223_j49976239456834_1_alg».proof.Proof.Spec
import proofs.«134223_j49976239456834_1_alg».proof.Proof.Consts
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section

namespace Cert.Pbd.Ref

open Idealize.ShloMosaic Idealize.ShloMosaic.ValueIdx Cert.ReferenceIdeal Cert.ReferenceIdeal.Gen Cert.Pbd

/-- The segment vectors: each point but the first minus its predecessor. -/
def d2 (X : FVec Ideal S512x16384x3 .f32) : FVec Ideal S512x16383x3 .f32 :=
  subf (extractStridedSlice S512x16383x3 ![0, 1, 0] X slices_S512x16384x3_S512x16383x3_0_1_0) (extractStridedSlice S512x16383x3 ![0, 0, 0] X slices_S512x16384x3_S512x16383x3_0_0_0)

/-- Squared segment length minus one. -/
def seg6 (X : FVec Ideal S512x16384x3 .f32) : FVec Ideal S512x16383 .f32 :=
  subf (Host.reduceAdd (mulf (d2 X) (d2 X)) (constant (F := Ideal) S_ .f32 0x00000000#32) reducesTo_S512x16383x3_S512x16383_d2 h_S_) (broadcastInDim S512x16383 ![] bcast_S_S512x16383 (constant (F := Ideal) S_ .f32 0x3F800000#32))

/-- The constant one over the segments (the cotangent seed of the sum of squares). -/
def one10 : FVec Ideal S512x16383 .f32 :=
  broadcastInDim S512x16383 ![0] bcast_S512_S512x16383_0 (broadcastInDim S512 ![] bcast_S_S512 (constant (F := Ideal) S_ .f32 0x3F800000#32))

/-- seg·1 + 1·seg, copied along the three coordinates. -/
def t14 (X : FVec Ideal S512x16384x3 .f32) : FVec Ideal S512x16383x3 .f32 :=
  broadcastInDim S512x16383x3 ![0, 1] bcast_S512x16383_S512x16383x3_0_1 (addf (mulf (seg6 X) one10) (mulf one10 (seg6 X)))

/-- d·t + t·d. -/
def u17 (X : FVec Ideal S512x16384x3 .f32) : FVec Ideal S512x16383x3 .f32 :=
  addf (mulf (d2 X) (t14 X)) (mulf (t14 X) (d2 X))

/-- The gradient: the negated copy with a zero row behind plus the plain copy with a zero row in front. -/
def grad21 (X : FVec Ideal S512x16384x3 .f32) : FVec Ideal S512x16384x3 .f32 :=
  addf (pad S512x16384x3 ![0, 0, 0] ![0, 1, 0] ![0, 0, 0] (Host.negf (u17 X)) (constant (F := Ideal) S_ .f32 0x00000000#32) pads_S512x16383x3_S512x16384x3_000_010_000 h_S_) (pad S512x16384x3 ![0, 1, 0] ![0, 0, 0] ![0, 0, 0] (u17 X) (constant (F := Ideal) S_ .f32 0x00000000#32) pads_S512x16383x3_S512x16384x3_000_100_000 h_S_)

/-- One step of the reference: X − (C / (‖grad‖² + ε)) · grad, per chain. -/
def rstep (X : FVec Ideal S512x16384x3 .f32) : FVec Ideal S512x16384x3 .f32 :=
  subf X (mulf (broadcastInDim S512x16384x3 ![0, 1, 2] bcast_S512x1x1_S512x16384x3_0_1_2 (broadcastInDim S512x1x1 ![0] bcast_S512_S512x1x1_0 (Host.divf (Host.reduceAdd (mulf (seg6 X) (seg6 X)) (constant (F := Ideal) S_ .f32 0x00000000#32) reducesTo_S512x16383_S512_d1 h_S_) (addf (Host.reduceAdd (mulf (grad21 X) (grad21 X)) (constant (F := Ideal) S_ .f32 0x00000000#32) reducesTo_S512x16384x3_S512_d1_2 h_S_) (broadcastInDim S512 ![] bcast_S_S512 (constant (F := Ideal) S_ .f32 0x33D6BF95#32)))))) (grad21 X))

/-! ## The generated run's named sub-terms are these functions -/

section Fold

variable (V0 : Valuation τ sig (Elt Ideal))

theorem v30_eq : Value.res_main_v30 V0 = rstep (V0 (Proc.devRef .tc main_arg0)) := rfl

theorem v61_eq : Value.res_main_v61 V0 = rstep (Value.res_main_v30 V0) := rfl

/-- The run's result term is the step applied three times to the argument's launch contents. -/
theorem run_term_eq :
    subf (Value.res_main_v61 V0) (mulf (broadcastInDim S512x16384x3 ![0, 1, 2] bcast_S512x1x1_S512x16384x3_0_1_2 (broadcastInDim S512x1x1 ![0] bcast_S512_S512x1x1_0 (Host.divf (Host.reduceAdd (mulf (Value.res_main_v68 V0) (Value.res_main_v68 V0)) (constant S_ .f32 0x00000000#32) reducesTo_S512x16383_S512_d1 h_S_) (addf (Host.reduceAdd (mulf (Value.res_main_v83 V0) (Value.res_main_v83 V0)) (constant S_ .f32 0x00000000#32) reducesTo_S512x16384x3_S512_d1_2 h_S_) (broadcastInDim S512 ![] bcast_S_S512 (constant S_ .f32 0x33D6BF95#32)))))) (Value.res_main_v83 V0))
      = rstep (rstep (rstep (V0 (Proc.devRef .tc main_arg0)))) := by
  rw [← v30_eq, ← v61_eq]
  rfl

end Fold

end Cert.Pbd.Ref

end
-- ==== Proof.RefStepReal.lean ====
/-
  The reference's one step, read at an index, on an array of real numbers: it is the reverse-mode spelling of the
  projection step (Spec.lean's stepR) on each chain.

  Bottom-up, one lemma per named stage read at explicit coordinates (b : chain, j : segment, i : point, d : coordinate):
  the segment vectors are dR, the squared length minus one is segR, the cotangent is tR, its product with the segment
  vectors uR, the two padded copies added give gradR, the two reductions consR and the double sum of denR, and the
  quotient by a positive real is the product with its reciprocal.
-/
import proofs.«134223_j49976239456834_1_alg».proof.Proof.RefStep

noncomputable section

open scoped BigOperators

namespace Cert.Pbd.Ref

open Idealize.ShloMosaic Idealize.ShloMosaic.ValueIdx Cert.ReferenceIdeal Cert.ReferenceIdeal.Gen Cert.Pbd

/-! ## Small tools -/

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The host's negation at an index is the negation. -/
theorem hostNegf_apply {s : Shape} {φ : FTy} (a : FVec Ideal s φ) (i : s.Idx) : Host.negf a i = -(a i) := rfl

/-- The index the reduction over the three coordinates inserts coordinate k at, over result index (b, j). -/
theorem lift_d2 (h : S512x16383x3.Reduces [2] S512x16383) (b : Fin 512) (j : Fin 16383) (k : Fin 3) :
    h.lift (ix2 b j) k = ix3 b j k := by
  funext c; apply Fin.ext
  match c with
  | ⟨0, _⟩ => rfl
  | ⟨1, _⟩ => rfl
  | ⟨2, _⟩ => rfl

/-- The index the reduction over the segments inserts segment k at, over result index b. -/
theorem lift_d1 (h : S512x16383.Reduces [1] S512) (b : Fin 512) (k : Fin 16383) :
    h.lift (ix1 b) k = ix2 b k := by
  funext c; apply Fin.ext
  match c with
  | ⟨0, _⟩ => rfl
  | ⟨1, _⟩ => rfl

/-- The constant one over the segments reads one. -/
theorem one10_apply (b : Fin 512) (j : Fin 16383) : one10 (ix2 b j) = ((1 : ℝ) : EReal) := by
  unfold one10
  rw [broadcastInDim_apply _ _ _ (ix2 b j) (ix1 b) (fun a => by
        match a with
        | ⟨0, _⟩ => exact (if_neg (show ¬ (512 : Nat) = 1 by omega)).symm),
    broadcastInDim_scalar_apply, constant_apply, Consts.ofBits_one]

/-- The copy padded with one row behind: the operand below the last row, the padding value on it. -/
theorem padHi_apply {α : Type} (Y : S512x16383x3.Idx → α) (z : S_.Idx → α) (b : Fin 512) (i : Fin 16384) (d : Fin 3) :
    pad S512x16384x3 ![0, 0, 0] ![0, 1, 0] ![0, 0, 0] Y z pads_S512x16383x3_S512x16384x3_000_010_000 h_S_ (ix3 b i d)
      = if h : i.val < 16383 then Y (ix3 b ⟨i.val, h⟩ d) else z (Shape.Idx.first h_S_) := by
  split
  · next h =>
    exact pad_apply_of_inside _ _ _ Y z _ _ (ix3 b i d) (ix3 b ⟨i.val, h⟩ d) (fun a => by
      match a with
      | ⟨0, _⟩ => show b.val = 0 + b.val * (0 + 1); omega
      | ⟨1, _⟩ => show i.val = 0 + i.val * (0 + 1); omega
      | ⟨2, _⟩ => show d.val = 0 + d.val * (0 + 1); omega)
  · next h =>
    exact pad_apply_of_not_inside _ _ _ Y z _ _ (ix3 b i d) (⟨1, by decide⟩ : Fin 3) (fun hin => by
      have e : (i.val - 0) / (0 + 1) < 16383 := hin.2.2
      omega)

/-- The copy padded with one row in front: the padding value on the first row, the operand one row up elsewhere. -/
theorem padLo_apply {α : Type} (Y : S512x16383x3.Idx → α) (z : S_.Idx → α) (b : Fin 512) (i : Fin 16384) (d : Fin 3) :
    pad S512x16384x3 ![0, 1, 0] ![0, 0, 0] ![0, 0, 0] Y z pads_S512x16383x3_S512x16384x3_000_100_000 h_S_ (ix3 b i d)
      = if h : 1 ≤ i.val then Y (ix3 b ⟨i.val - 1, by have := i.isLt; omega⟩ d) else z (Shape.Idx.first h_S_) := by
  split
  · next h =>
    exact pad_apply_of_inside _ _ _ Y z _ _ (ix3 b i d) (ix3 b ⟨i.val - 1, by have := i.isLt; omega⟩ d) (fun a => by
      match a with
      | ⟨0, _⟩ => show b.val = 0 + b.val * (0 + 1); omega
      | ⟨1, _⟩ => show i.val = 1 + (i.val - 1) * (0 + 1); omega
      | ⟨2, _⟩ => show d.val = 0 + d.val * (0 + 1); omega)
  · next h =>
    exact pad_apply_of_not_inside _ _ _ Y z _ _ (ix3 b i d) (⟨1, by decide⟩ : Fin 3) (fun hin => by
      have e : 1 ≤ i.val := hin.1
      exact h e)

/-- The indices of a [512, 16384, 3] array that keep chain b when the point and coordinate axes are dropped are the
    pairs (point, coordinate): the sum over them is the double sum. -/
theorem sum_drop12 (h : S512x16384x3.ReducesTo [1, 2] S512) (x : S512x16384x3.Idx → EReal) (b : Fin 512)
    [DecidablePred fun i : S512x16384x3.Idx => h.drop i = ix1 b] :
    ∑ i ∈ Finset.univ.filter (fun i => h.drop i = ix1 b), x i = ∑ i : Fin 16384, ∑ d : Fin 3, x (ix3 b i d) := by
  have key : ∀ i : S512x16384x3.Idx, h.drop i = ix1 b → ix3 b (i 1) (i 2) = i := by
    intro i hj
    have h0 : i 0 = b := by
      have e := congrArg Fin.val (congrFun hj 0)
      rw [h.drop_apply_val_of_eq i 0 0] at e
      exact Fin.ext e
    rw [← h0]; exact (eq_ix3 i).symm
  rw [← Fintype.sum_prod_type' (f := fun (i : Fin 16384) (d : Fin 3) => x (ix3 b i d))]
  refine Finset.sum_nbij' (fun i : S512x16384x3.Idx => ((i 1, i 2) : Fin 16384 × Fin 3))
    (fun p : Fin 16384 × Fin 3 => ix3 b p.1 p.2) ?_ ?_ ?_ ?_ ?_
  · intro i _; exact @Finset.mem_univ (Fin 16384 × Fin 3) _ (i 1, i 2)
  · intro p _
    refine Finset.mem_filter.2 ⟨Finset.mem_univ _, ?_⟩
    funext c; apply Fin.ext
    match c with
    | ⟨0, _⟩ => exact h.drop_apply_val_of_eq (ix3 b p.1 p.2) 0 0
  · intro i hi; exact key i (Finset.mem_filter.1 hi).2
  · intro p _; rfl
  · intro i hi; exact congrArg x (key i (Finset.mem_filter.1 hi).2).symm

/-- The host's sum over the point and coordinate axes from a zero initial value, at chain b. -/
theorem reduce12_apply (G : FVec Ideal S512x16384x3 .f32) (b : Fin 512) :
    Host.reduceAdd G (constant (F := Ideal) S_ .f32 0x00000000#32) reducesTo_S512x16384x3_S512_d1_2 h_S_ (ix1 b)
      = ((0 : ℝ) : EReal) + ∑ i : Fin 16384, ∑ d : Fin 3, G (ix3 b i d) := by
  rw [hostReduceAdd_apply, constant_apply, Consts.ofBits_zero]
  unfold Ideal.hostReduceAdd
  rw [sum_drop12]

section Stages

variable (X : FVec Ideal S512x16384x3 .f32) (R : Fin 512 → Chain)
  (hX : ∀ (b : Fin 512) (i : Fin 16384) (d : Fin 3), X (ix3 b i d) = ((R b i d : ℝ) : EReal))

include hX

/-- The segment vectors. -/
theorem d2_apply (b : Fin 512) (j : Fin 16383) (d : Fin 3) :
    d2 X (ix3 b j d) = ((dR (R b) j d : ℝ) : EReal) := by
  unfold d2
  rw [subf_apply,
    slice3_axis1_apply 1 X _ b j d (up j) (by show j.val + 1 = 1 + j.val; omega),
    slice3_axis1_apply 0 X _ b j d (lo j) (by show j.val = 0 + j.val; omega),
    hX, hX, dR, EReal.coe_sub]

/-- Squared segment length minus one. -/
theorem seg6_apply (b : Fin 512) (j : Fin 16383) :
    seg6 X (ix2 b j) = ((segR (R b) j : ℝ) : EReal) := by
  have hr : S512x16383x3.Reduces [2] S512x16383 := by decide
  unfold seg6
  rw [subf_apply, hostReduceAdd_apply, Ideal.hostReduceAdd_single _ hr, broadcastInDim_scalar_apply,
    constant_apply, constant_apply, Consts.ofBits_zero, Consts.ofBits_one, segR, EReal.coe_sub, EReal.coe_add, coe_sum]
  refine congrArg₂ (· - ·) (congrArg₂ (· + ·) rfl (Finset.sum_congr rfl fun (k : Fin 3) _ => ?_)) rfl
  have e : hr.lift (ix2 b j) k = ix3 b j k := lift_d2 hr b j k
  rw [e, mulf_apply, d2_apply X R hX, EReal.coe_mul]

/-- The cotangent seg·1 + 1·seg. -/
theorem t14_apply (b : Fin 512) (j : Fin 16383) (d : Fin 3) :
    t14 X (ix3 b j d) = ((tR (R b) j : ℝ) : EReal) := by
  unfold t14
  rw [broadcastInDim_apply _ _ _ (ix3 b j d) (ix2 b j) (fun a => by
        match a with
        | ⟨0, _⟩ => exact (if_neg (show ¬ (512 : Nat) = 1 by omega)).symm
        | ⟨1, _⟩ => exact (if_neg (show ¬ (16383 : Nat) = 1 by omega)).symm),
    addf_apply, mulf_apply, mulf_apply, seg6_apply X R hX, one10_apply, tR, EReal.coe_add, EReal.coe_mul, EReal.coe_mul]

/-- d·t + t·d. -/
theorem u17_apply (b : Fin 512) (j : Fin 16383) (d : Fin 3) :
    u17 X (ix3 b j d) = ((uR (R b) j d : ℝ) : EReal) := by
  unfold u17
  rw [addf_apply, mulf_apply, mulf_apply, d2_apply X R hX, t14_apply X R hX, uR, EReal.coe_add, EReal.coe_mul,
    EReal.coe_mul]

/-- The gradient: the negated copy shifted down plus the plain copy shifted up, zero at the two ends. -/
theorem grad21_apply (b : Fin 512) (i : Fin 16384) (d : Fin 3) :
    grad21 X (ix3 b i d) = ((gradR (R b) i d : ℝ) : EReal) := by
  unfold grad21
  rw [addf_apply, padHi_apply, padLo_apply, gradR, EReal.coe_add]
  congr 1
  · by_cases h : i.val < 16383
    · rw [dif_pos h, dif_pos h, hostNegf_apply, u17_apply X R hX, EReal.coe_neg]
    · rw [dif_neg h, dif_neg h, constant_apply, Consts.ofBits_zero]
  · by_cases h : 1 ≤ i.val
    · rw [dif_pos h, dif_pos h, u17_apply X R hX]
    · rw [dif_neg h, dif_neg h, constant_apply, Consts.ofBits_zero]

/-- The constraint: zero plus the sum over the segments of seg·seg. -/
theorem cons_apply (b : Fin 512) :
    Host.reduceAdd (mulf (seg6 X) (seg6 X)) (constant (F := Ideal) S_ .f32 0x00000000#32) reducesTo_S512x16383_S512_d1 h_S_
        (ix1 b) = ((consR (R b) : ℝ) : EReal) := by
  have hr : S512x16383.Reduces [1] S512 := by decide
  rw [hostReduceAdd_apply, Ideal.hostReduceAdd_single _ hr, constant_apply, Consts.ofBits_zero, consR, EReal.coe_add,
    coe_sum]
  refine congrArg₂ (· + ·) rfl (Finset.sum_congr rfl fun (k : Fin 16383) _ => ?_)
  have e : hr.lift (ix1 b) k = ix2 b k := lift_d1 hr b k
  rw [e, mulf_apply, seg6_apply X R hX, EReal.coe_mul]

/-- The denominator: zero plus the double sum of grad·grad, plus ε. -/
theorem den_apply (b : Fin 512) :
    addf (Host.reduceAdd (mulf (grad21 X) (grad21 X)) (constant (F := Ideal) S_ .f32 0x00000000#32)
        reducesTo_S512x16384x3_S512_d1_2 h_S_)
      (broadcastInDim S512 ![] bcast_S_S512 (constant (F := Ideal) S_ .f32 0x33D6BF95#32)) (ix1 b)
      = ((denR (R b) : ℝ) : EReal) := by
  rw [addf_apply, reduce12_apply, broadcastInDim_scalar_apply, constant_apply, Consts.ofBits_eps, denR, EReal.coe_add,
    EReal.coe_add, coe_sum]
  refine congrArg₂ (· + ·) (congrArg₂ (· + ·) rfl (Finset.sum_congr rfl fun i _ => ?_)) rfl
  rw [coe_sum]
  refine Finset.sum_congr rfl fun d _ => ?_
  rw [mulf_apply, grad21_apply X R hX, EReal.coe_mul]

/-- One step of the reference on an array of reals is the reverse-mode projection step on each chain. -/
theorem rstep_real : ∀ (b : Fin 512) (i : Fin 16384) (d : Fin 3),
    rstep X (ix3 b i d) = ((stepR (R b) i d : ℝ) : EReal) := by
  intro b i d
  unfold rstep
  rw [subf_apply, mulf_apply,
    broadcastInDim_apply _ _ _ (ix3 b i d) (ix3 b (0 : Fin 1) (0 : Fin 1)) (fun a => by
        match a with
        | ⟨0, _⟩ => exact (if_neg (show ¬ (512 : Nat) = 1 by omega)).symm
        | ⟨1, _⟩ => exact (if_pos rfl).symm
        | ⟨2, _⟩ => exact (if_pos rfl).symm),
    broadcastInDim_apply _ _ _ (ix3 b (0 : Fin 1) (0 : Fin 1)) (ix1 b) (fun a => by
        match a with
        | ⟨0, _⟩ => exact (if_neg (show ¬ (512 : Nat) = 1 by omega)).symm),
    hostDivf_apply, cons_apply X R hX, den_apply X R hX, Ideal.div_coe (denR_pos (R b)).ne', ← EReal.coe_mul, hX,
    grad21_apply X R hX, ← EReal.coe_mul, ← EReal.coe_sub]
  unfold stepR
  rw [mul_one_div]

end Stages

end Cert.Pbd.Ref

end
-- ==== Proof.lean ====
/-
  The chain-distance projection, three steps, as a kernel and as reverse-mode differentiation: one function at the
  ideal values.

  Both programs take an array of 512 chains of 16384 points of ℝ³ and apply three times the step
      r ↦ r − (C(r) / (‖∇C(r)‖² + ε)) · ∇C(r),   C(r) = ∑ⱼ (‖r(j+1) − r(j)‖² − 1)²,
  chain by chain. The kernel works on tiles of 16 chains with the positions on the lanes: neighbour differences by
  cyclic rotations, the wrap-around segment switched off by a 0/1 mask, ∇C spelt out as 4·(g(i−1) − g(i)) with
  g = seg·d. The reference differentiates C in reverse mode: slices, the cotangent seg·1 + 1·seg, d·t + t·d, two
  zero-padded copies added. Under the precondition every entry of the argument is a real number; then every
  intermediate value of both programs is real (the divisor is at least ε > 0), the two spellings of the step agree by
  ring identities and a re-indexing of the sums over the chain (Proof/SpecEq.lean), and both results are the chains
  after three steps (the kernel's: Proof/KStep, KReal, KBlock, KArray; the reference's: Proof/RefStep, RefStepReal).
  The frames of the two kernel programs are the generated ones; the reference's frame is its generated run with the
  result dropped; the ideal pass rewrote nothing, so `preserves` is trivial.
-/
import proofs.«134223_j49976239456834_1_alg».proof.Defs
import proofs.«134223_j49976239456834_1_alg».proof.Proof.Gen.Kernel
import proofs.«134223_j49976239456834_1_alg».proof.Proof.Gen.Kernel.Skeleton
import proofs.«134223_j49976239456834_1_alg».proof.Proof.Gen.Kernel.Launch
import proofs.«134223_j49976239456834_1_alg».proof.Proof.Gen.Kernel.Points
import proofs.«134223_j49976239456834_1_alg».proof.Proof.Gen.Kernel.Frame
import proofs.«134223_j49976239456834_1_alg».proof.Proof.Gen.KernelIdeal
import proofs.«134223_j49976239456834_1_alg».proof.Proof.Gen.KernelIdeal.Skeleton
import proofs.«134223_j49976239456834_1_alg».proof.Proof.Gen.KernelIdeal.Launch
import proofs.«134223_j49976239456834_1_alg».proof.Proof.Gen.KernelIdeal.Points
import proofs.«134223_j49976239456834_1_alg».proof.Proof.Gen.KernelIdeal.Frame
import proofs.«134223_j49976239456834_1_alg».proof.Proof.Gen.ReferenceIdeal
import proofs.«134223_j49976239456834_1_alg».proof.Proof.Gen.Pre_finite_inputs
import proofs.«134223_j49976239456834_1_alg».proof.Proof.Gen.ReferenceIdeal.Run
import proofs.«134223_j49976239456834_1_alg».proof.Proof.SpecEq
import proofs.«134223_j49976239456834_1_alg».proof.Proof.Finite
import proofs.«134223_j49976239456834_1_alg».proof.Proof.KArray
import proofs.«134223_j49976239456834_1_alg».proof.Proof.RefStepReal
import Idealize.ShloMosaic.Adequacy
import Idealize.ShloMosaic.Init

noncomputable section

namespace Cert.Proof

open Idealize.ShloMosaic Idealize.ShloMosaic.TcCoe Idealize.SL.Sem Idealize.ShloMosaic.ValueIdx Cert.Pbd

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on a finite argument both programs end with every chain after three steps: the kernel's
    lane-wise step and the reference's reverse-mode step are one function on real chains. -/
theorem algebraic : Cert.algebraic_KernelIdeal_ReferenceIdeal := by
  intro m ρ m' ρ' hpre hagree
  have hR : ∀ (c : Dev Cert.KernelIdeal.nD) (b : Fin 512) (q : Fin 16384) (d : Fin 3),
      (m ((c : Thread Cert.KernelIdeal.nD Cert.KernelIdeal.τ).loc Cert.KernelIdeal.main_arg0)
          : Cert.KernelIdeal.S512x16384x3.Idx → Elt Ideal .f32) (ix3 b q d)
        = ((((m ((c : Thread Cert.KernelIdeal.nD Cert.KernelIdeal.τ).loc Cert.KernelIdeal.main_arg0)
            : Cert.KernelIdeal.S512x16384x3.Idx → Elt Ideal .f32) (ix3 b q d)).toReal : ℝ) : EReal) :=
    fun c b q d => real_of_pre _ (hpre c) (ix3 b q d)
  refine ⟨fun c => Ker.resultFn fun b q d =>
      ((m ((c : Thread Cert.KernelIdeal.nD Cert.KernelIdeal.τ).loc Cert.KernelIdeal.main_arg0)
        : Cert.KernelIdeal.S512x16384x3.Idx → Elt Ideal .f32) (ix3 b q d)).toReal, Ker.run m ρ _ hR, ?_⟩
  refine (θ_run Cert.ReferenceIdeal.defs _ _).mono (fun _ h c => ⟨(h c).1.trans ?_, (h c).2⟩)
    (Cert.ReferenceIdeal.Value.run (F := Ideal) m' ρ')
  rw [Ref.run_term_eq]
  have hX : ∀ (b : Fin 512) (q : Fin 16384) (d : Fin 3),
      (StableHlo.launchContents m' c (Proc.devRef .tc Cert.ReferenceIdeal.main_arg0)
          : Cert.ReferenceIdeal.S512x16384x3.Idx → Elt Ideal .f32) (ix3 b q d) = _ := fun b q d =>
    (congrFun (hagree c) (ix3 b q d)).trans (hR c b q d)
  have s1 := Ref.rstep_real _ _ hX
  have s2 := Ref.rstep_real _ _ s1
  have s3 := Ref.rstep_real _ _ s2
  funext i
  rw [eq_ix3 i]
  refine (s3 (i 0) (i 1) (i 2)).trans ?_
  show _ = ((Ker.step3 _ (i 1) (i 2) : ℝ) : EReal)
  unfold Ker.step3
  rw [stepK_eq_stepR, stepK_eq_stepR, stepK_eq_stepR]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
